-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048 : Shape := ⟨1, ![2048]⟩
abbrev S2048x2048 : Shape := ⟨2, ![2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048 .f32) (main_arg5 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S8x2048x2048 .f32) (main_arg1 : FVec F S2048 .f32) (main_arg2 : FVec F S2048 .f32) (main_arg3 : FVec F S2048x2048 .f32) (main_arg4 : FVec F S2048 .f32) (main_arg5 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S8x2048x2048 : Shape := ⟨3, ![8, 2048, 2048]⟩
abbrev S2048 : Shape := ⟨1, ![2048]⟩
abbrev S2048x2048 : Shape := ⟨2, ![2048, 2048]⟩
abbrev S16384x2048 : Shape := ⟨2, ![16384, 2048]⟩
abbrev S_ : Shape := ⟨0, ![]⟩
abbrev S2048x1 : Shape := ⟨2, ![2048, 1]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 24
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S16384x2048, .f32⟩
  | .hbm, ⟨23, _⟩ => ⟨S8x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x2048_S16384x2048 : S8x2048x2048.ShapeCasts S16384x2048
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S8x2048x2048 : S16384x2048.ShapeCasts S8x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S16384x2048.size a
  hwx0_6 : ∀ i : grid0.Coords, EltTy.bits .f32 = 32 ∨ (Rect.block (s := S16384x2048) S512x2048.size (cc0_transform_6 i) (hinb0_6 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048 : Shape := ⟨1, ![2048]⟩
abbrev S2048x2048 : Shape := ⟨2, ![2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S1x1x2048, .f32⟩
  | .hbm, ⟨30, _⟩ => ⟨S8x2048x2048, .f32⟩
  | .hbm, ⟨31, _⟩ => ⟨S8x2048x2048, .f32⟩
  | .hbm, ⟨32, _⟩ => ⟨S1x1x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S8x2048x2048, .f32⟩
  | .hbm, ⟨46, _⟩ => ⟨S1x1x2048, .f32⟩
  | .hbm, ⟨47, _⟩ => ⟨S8x2048x2048, .f32⟩
  | .hbm, ⟨48, _⟩ => ⟨S8x2048x2048, .f32⟩
  | .hbm, ⟨49, _⟩ => ⟨S1x1x2048, .f32⟩
  | .hbm, ⟨50, _⟩ => ⟨S8x2048x2048, .f32⟩
  | .hbm, ⟨51, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  reducesTo_S2048x2048_S2048_d1 : S2048x2048.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.RowSpec.lean ====
/-
  A binarised linear layer, row by row, on the extended reals.

  For a row `r` of 2048 entries: its mean is the sum divided by 2048, its deviations are `r k - mean r`, its
  variance is the mean of the squared deviations. The normalised row is
  `dev r k · rsqrt (var r + ε) · g k + b k`, and the activation is its sign. A weight row is replaced by the sign
  of its own deviations. One output entry is the contraction of an activation row with a binarised weight row,
  plus a bias, times a scale (`combine`). `layer` is the whole [8, 2048, 2048] result as a function of the six argument
  arrays: entry (p, s, o) uses row (p, s) of the input and row o of the weight.

  The divisor 2048 and ε are kept as the words both programs print; nothing here evaluates them.
-/
import Idealize.ShloMosaic.PureOps.Ideal
import Idealize.ShloMosaic.PureOps.Ideal.Laws
import Idealize.ShloMosaic.Lib.ValueIdx

noncomputable section

open scoped BigOperators

namespace Cert.BinLinear

open Idealize.ShloMosaic Idealize.ShloMosaic.ValueIdx

/-- The divisor of both means: the word of 2048.0. -/
def len : EReal := Ideal.ofBits .f32 0x45000000#32
/-- The variance's offset under the reciprocal square root: the word both programs add. -/
def eps : EReal := Ideal.ofBits .f32 0x3727C5AC#32

/-- The mean of a row of 2048 entries. -/
def mean (r : Fin 2048 → EReal) : EReal := Ideal.div (∑ k : Fin 2048, r k) len
/-- An entry's deviation from its row's mean. -/
def dev (r : Fin 2048 → EReal) (k : Fin 2048) : EReal := r k - mean r
/-- The (biased) variance of a row: the mean of its squared deviations. -/
def var (r : Fin 2048 → EReal) : EReal := mean fun k => dev r k * dev r k
/-- The normalised row with its affine parameters. -/
def normed (r g b : Fin 2048 → EReal) (k : Fin 2048) : EReal :=
  dev r k * Ideal.rsqrt (var r + eps) * g k + b k
/-- The binarised activation. -/
def act (r g b : Fin 2048 → EReal) (k : Fin 2048) : EReal := Ideal.sign (normed r g b k)
/-- A binarised weight row: the sign of the row's deviations. -/
def wbin (w : Fin 2048 → EReal) (k : Fin 2048) : EReal := Ideal.sign (dev w k)
/-- The contraction of two rows of 2048 entries, plus a bias, times a scale. -/
def combine (a wb : Fin 2048 → EReal) (bias alpha : EReal) : EReal :=
  ((∑ k : Fin 2048, a k * wb k) + bias) * alpha
/-- One output entry: the activations of an input row against a binarised weight row. -/
def entry (r g b w : Fin 2048 → EReal) (bias alpha : EReal) : EReal :=
  combine (act r g b) (wbin w) bias alpha

abbrev T3 : Shape := ⟨3, ![8, 2048, 2048]⟩
abbrev T2 : Shape := ⟨2, ![2048, 2048]⟩
abbrev T1 : Shape := ⟨1, ![2048]⟩

/-- Entry (p, s, o) of the layer from the six argument arrays. -/
def entryAt (x : T3.Idx → EReal) (g b : T1.Idx → EReal) (w : T2.Idx → EReal) (bias alpha : T1.Idx → EReal)
    (p : Fin 8) (s o : Fin 2048) : EReal :=
  entry (fun k => x (ix3 p s k)) (fun k => g (ix1 k)) (fun k => b (ix1 k)) (fun k => w (ix2 o k))
    (bias (ix1 o)) (alpha (ix1 o))

/-- The whole result. -/
def layer (x : T3.Idx → EReal) (g b : T1.Idx → EReal) (w : T2.Idx → EReal) (bias alpha : T1.Idx → EReal) :
    T3.Idx → EReal := fun i => entryAt x g b w bias alpha (i 0) (i 1) (i 2)

theorem layer_ix3 (x : T3.Idx → EReal) (g b : T1.Idx → EReal) (w : T2.Idx → EReal) (bias alpha : T1.Idx → EReal)
    (p : Fin 8) (s o : Fin 2048) : layer x g b w bias alpha (ix3 p s o) = entryAt x g b w bias alpha p s o := rfl

end Cert.BinLinear

end
-- ==== Proof.RefSide.lean ====
/-
  The reference program is the layer.

  The reference's result, read one host operation at a time at the index (p, s, o): the two row statistics of
  input row (p, s) are the row's mean and variance, every keepdims broadcast reads the statistic of its own row,
  the per-feature parameters are read at the feature k, the weight statistics are those of weight row o, and the
  contraction runs over k with the input's row (p, s) against the weight's row o.
-/
import proofs.«106671_j49203145343136_1_alg».proof.Proof.Gen.ReferenceIdeal.Read
import proofs.«106671_j49203145343136_1_alg».proof.Proof.RowSpec

noncomputable section

open scoped BigOperators

namespace Cert.BinLinear.Ref

open Cert.ReferenceIdeal Cert.ReferenceIdeal.Read Idealize.ShloMosaic Idealize.ShloMosaic.ValueIdx Cert.BinLinear

variable (x : (⟨S8x2048x2048, .f32⟩ : BufTy).Contents (Elt Ideal))
variable (g b bias alpha : (⟨S2048, .f32⟩ : BufTy).Contents (Elt Ideal))
variable (w : (⟨S2048x2048, .f32⟩ : BufTy).Contents (Elt Ideal))

/-- The keepdims mean of input row (p, s). -/
theorem mean_at (p : Fin 8) (s : Fin 2048) (u : Fin 1) :
    val_main_v3 (F := Ideal) x (ix3 p s u) = mean fun k => x (ix3 p s k) := by
  have e : ∀ k, idx_main_v0 (idx_main_v1 (ix3 p s u)) k = ix3 p s k := fun k => by
    funext a; match a with | ⟨0, _⟩ => rfl | ⟨1, _⟩ => rfl | ⟨2, _⟩ => rfl
  rw [val_main_v3_apply, val_main_v1_apply, val_main_v2_apply, val_main_cst_0_apply, val_main_v0_apply,
    val_main_cst_apply]
  simp only [e, Ideal.hostDivf_def, Ideal.ofBits_def, Ideal.ofBits_zero_f32, zero_add]
  rfl

/-- The deviations of input row (p, s), as the variance's operand spells them. -/
theorem dev_at_sq (p : Fin 8) (s k : Fin 2048) :
    val_main_v5 (F := Ideal) x (ix3 p s k) = dev (fun k => x (ix3 p s k)) k := by
  have e : idx_main_v4 (ix3 p s k) = ix3 p s (0 : Fin 1) := by
    funext a; match a with | ⟨0, _⟩ => rfl | ⟨1, _⟩ => rfl | ⟨2, _⟩ => rfl
  rw [val_main_v5_apply, val_main_v4_apply, e, mean_at]
  rfl

/-- The same deviations, as the normalisation spells them. -/
theorem dev_at (p : Fin 8) (s k : Fin 2048) :
    val_main_v12 (F := Ideal) x (ix3 p s k) = dev (fun k => x (ix3 p s k)) k := by
  have e : idx_main_v11 (ix3 p s k) = ix3 p s (0 : Fin 1) := by
    funext a; match a with | ⟨0, _⟩ => rfl | ⟨1, _⟩ => rfl | ⟨2, _⟩ => rfl
  rw [val_main_v12_apply, val_main_v11_apply, e, mean_at]
  rfl

/-- The keepdims variance of input row (p, s). -/
theorem var_at (p : Fin 8) (s : Fin 2048) (u : Fin 1) :
    val_main_v10 (F := Ideal) x (ix3 p s u) = var fun k => x (ix3 p s k) := by
  have e : ∀ k, idx_main_v7 (idx_main_v8 (ix3 p s u)) k = ix3 p s k := fun k => by
    funext a; match a with | ⟨0, _⟩ => rfl | ⟨1, _⟩ => rfl | ⟨2, _⟩ => rfl
  rw [val_main_v10_apply, val_main_v8_apply, val_main_v9_apply, val_main_cst_2_apply, val_main_v7_apply,
    val_main_cst_1_apply]
  simp only [e, val_main_v6_apply, dev_at_sq, Ideal.hostDivf_def, Ideal.mulf_def, Ideal.ofBits_def,
    Ideal.ofBits_zero_f32, zero_add]
  rfl

/-- The normalised input at (p, s, k). -/
theorem normed_at (p : Fin 8) (s k : Fin 2048) :
    val_main_v23 (F := Ideal) x g b (ix3 p s k)
      = normed (fun k => x (ix3 p s k)) (fun k => g (ix1 k)) (fun k => b (ix1 k)) k := by
  have e16 : idx_main_v16 (ix3 p s k) = ix3 p s (0 : Fin 1) := by
    funext a; match a with | ⟨0, _⟩ => rfl | ⟨1, _⟩ => rfl | ⟨2, _⟩ => rfl
  have e18 : idx_main_v18 (idx_main_v19 (ix3 p s k)) = ix1 k := by
    funext a; match a with | ⟨0, _⟩ => rfl
  have e21 : idx_main_v21 (idx_main_v22 (ix3 p s k)) = ix1 k := by
    funext a; match a with | ⟨0, _⟩ => rfl
  rw [val_main_v23_apply, val_main_v20_apply, val_main_v17_apply, val_main_v16_apply, val_main_v15_apply,
    val_main_v14_apply, val_main_v13_apply, val_main_cst_3_apply, val_main_v19_apply, val_main_v18_apply,
    val_main_v22_apply, val_main_v21_apply, e16, e18, e21, dev_at, var_at]
  rfl

/-- The binarised weight at (o, k). -/
theorem wbin_at (o k : Fin 2048) :
    val_main_v31 (F := Ideal) w (ix2 o k) = wbin (fun j => w (ix2 o j)) k := by
  have e : ∀ j, idx_main_v25 (idx_main_v26 (idx_main_v29 (ix2 o k))) j = ix2 o j := fun j => by
    funext a; match a with | ⟨0, _⟩ => rfl | ⟨1, _⟩ => rfl
  rw [val_main_v31_apply, val_main_v30_apply, val_main_v29_apply, val_main_v28_apply, val_main_v26_apply,
    val_main_v27_apply, val_main_cst_5_apply, val_main_v25_apply, val_main_cst_4_apply]
  simp only [e, Ideal.hostDivf_def, Ideal.ofBits_def, Ideal.ofBits_zero_f32, zero_add]
  rfl

/-- The reference's result is the layer of its arguments. -/
theorem result_eq :
    val_main_v38 (F := Ideal) x g b w bias alpha = layer x g b w bias alpha := by
  funext i
  obtain ⟨p, s, o, rfl⟩ : ∃ (p : Fin 8) (s o : Fin 2048), i = ix3 p s o := ⟨i 0, i 1, i 2, eq_ix3 i⟩
  have el : ∀ k, lidx_main_v32 (ix3 p s o) k = ix3 p s k := fun k => by
    funext a; match a with | ⟨0, _⟩ => rfl | ⟨1, _⟩ => rfl | ⟨2, _⟩ => rfl
  have er : ∀ k, ridx_main_v32 (ix3 p s o) k = ix2 o k := fun k => by
    funext a; match a with | ⟨0, _⟩ => rfl | ⟨1, _⟩ => rfl
  have e33 : idx_main_v33 (idx_main_v34 (ix3 p s o)) = ix1 o := by
    funext a; match a with | ⟨0, _⟩ => rfl
  have e36 : idx_main_v36 (idx_main_v37 (ix3 p s o)) = ix1 o := by
    funext a; match a with | ⟨0, _⟩ => rfl
  rw [layer_ix3, val_main_v38_apply, val_main_v35_apply, val_main_v32_apply, val_main_v34_apply,
    val_main_v33_apply, val_main_v37_apply, val_main_v36_apply, e33, e36]
  simp only [el, er, val_main_v24_apply, normed_at, wbin_at, Ideal.hostUnary_sign_def]
  rfl

end Cert.BinLinear.Ref

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.KernelPayload.lean ====
/-
  What the kernel body computes from its blocks, read at an index.

  The body gets a block of 512 input rows, the whole binarised weight matrix (transposed: row k, column q), and
  four parameter rows. Per input row it takes the mean and the variance along the row, keeps each as a column and
  spreads it back over the row, normalises, applies the affine parameters, takes the sign, and contracts the result
  with the weight block; then it adds the bias row and multiplies by the scale row. At (p, q) this is `combine` of
  the activations of block row p with column q of the weight block.
-/
import proofs.«106671_j49203145343136_1_alg».proof.Proof.Gen.KernelIdeal.Skeleton
import proofs.«106671_j49203145343136_1_alg».proof.Proof.RowSpec
import proofs.«106671_j49203145343136_1_alg».proof.Proof.LibColumn
import proofs.«106671_j49203145343136_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BinLinear.Ker

open Cert.KernelIdeal Idealize.ShloMosaic Idealize.ShloMosaic.ValueIdx Cert.BinLinear

/-- A lane sum at row p is the sum of the row's entries. -/
theorem rowSum_at (v : FVec Ideal S512x2048 .f32) (h : S512x2048.Reduces [1] S512) (hφ : FKind.Formats .f32)
    (hacc : (0x00000000#32 : BitVec (FTy.bits .f32)) = FKind.add.neutral .f32 hφ) (p : Fin 512) :
    multiReduction .add [1] S512 v 0x00000000#32 h hφ hacc (ix1 p) = ∑ k : Fin 2048, v (ix2 p k) :=
  (Ideal.multiReduction_add_single v _ h hφ hacc (ix1 p)).trans
    (Finset.sum_congr rfl fun k _ => congrArg v (by
      funext a; apply Fin.ext; match a with | ⟨0, _⟩ => rfl | ⟨1, _⟩ => rfl))

/-- The rows' means, kept as a column. -/
def colMean (v : FVec Ideal S512x2048 .f32) : FVec Ideal S512x1 .f32 :=
  divf (shapeCast S512x1 (multiReduction .add [1] S512 v 0x00000000#32))
    (broadcast S512x1 (Scalar.ofBits .f32 0x45000000#32))

theorem colMean_at (v : FVec Ideal S512x2048 .f32) (p : Fin 512) (u : Fin 1) :
    colMean v (ix2 p u) = mean fun k => v (ix2 p k) := by
  unfold colMean
  rw [divf_apply, broadcast_apply, LibColumn.shapeCast_a_a1_apply]
  exact congrArg (fun t => Ideal.div t len) (rowSum_at v _ _ _ p)

/-- Every entry's deviation from its row's mean. -/
def devs (v : FVec Ideal S512x2048 .f32) : FVec Ideal S512x2048 .f32 :=
  subf v (broadcastTo S512x2048 (colMean v))

theorem devs_at (v : FVec Ideal S512x2048 .f32) (p : Fin 512) (k : Fin 2048) :
    devs v (ix2 p k) = dev (fun j => v (ix2 p j)) k := by
  unfold devs
  rw [subf_apply, LibColumn.broadcastTo_a1_ab_apply, colMean_at]
  rfl

/-- The rows' variances, kept as a column. -/
def colVar (v : FVec Ideal S512x2048 .f32) : FVec Ideal S512x1 .f32 :=
  colMean (mulf (devs v) (devs v))

theorem colVar_at (v : FVec Ideal S512x2048 .f32) (p : Fin 512) (u : Fin 1) :
    colVar v (ix2 p u) = var fun k => v (ix2 p k) := by
  unfold colVar
  rw [colMean_at]
  unfold var
  refine congrArg mean (funext fun k => ?_)
  rw [mulf_apply, devs_at]

/-- The normalised block with its affine parameter rows. -/
def normedBlk (v : FVec Ideal S512x2048 .f32) (g b : FVec Ideal S1x2048 .f32) : FVec Ideal S512x2048 .f32 :=
  addf (mulf (mulf (devs v)
      (broadcastTo S512x2048 (rsqrt (addf (colVar v) (broadcast S512x1 (Scalar.ofBits .f32 0x3727C5AC#32))))))
    (broadcastTo S512x2048 g)) (broadcastTo S512x2048 b)

theorem normedBlk_at (v : FVec Ideal S512x2048 .f32) (g b : FVec Ideal S1x2048 .f32) (p : Fin 512) (k : Fin 2048) :
    normedBlk v g b (ix2 p k)
      = normed (fun j => v (ix2 p j)) (fun j => g (ix2 (0 : Fin 1) j)) (fun j => b (ix2 (0 : Fin 1) j)) k := by
  have hr : rsqrt (addf (colVar v) (broadcast S512x1 (Scalar.ofBits .f32 0x3727C5AC#32))) (ix2 p (0 : Fin 1))
      = Ideal.rsqrt ((var fun j => v (ix2 p j)) + eps) := by
    show Ideal.rsqrt (colVar v (ix2 p (0 : Fin 1)) + _) = _
    rw [colVar_at]
    rfl
  unfold normedBlk
  rw [addf_apply, mulf_apply, mulf_apply, devs_at, LibColumn.broadcastTo_a1_ab_apply, hr,
    broadcastTo_1b_ab_apply, broadcastTo_1b_ab_apply]
  rfl

/-- The sign as the body spells it: one with the operand's sign where the operand is not zero, the operand
    itself where it is. -/
def signBlk (y : FVec Ideal S512x2048 .f32) : FVec Ideal S512x2048 .f32 :=
  select (cmpf .ogt (absf y) (broadcast S512x2048 (Scalar.ofBits .f32 0x00000000#32)))
    (select (cmpf .olt y (constant S512x2048 .f32 0x00000000#32)) (constant S512x2048 .f32 0xBF800000#32)
      (constant S512x2048 .f32 0x3F800000#32)) y

theorem signBlk_at (y : FVec Ideal S512x2048 .f32) (i : S512x2048.Idx) : signBlk y i = Ideal.sign (y i) :=
  Ideal.jnp_sign_eq_sign_f32 (y i)

/-- The product with the weight block, the left operand narrowed to sixteen bits first (no change of value on
    the extended reals). -/
def prod (a : FVec Ideal S512x2048 .f32) (wt : FVec Ideal S2048x2048 .bf16) : FVec Ideal S512x2048 .f32 :=
  matmul dot_S512x2048_S2048x2048_S512x2048_1_0_0_1_n_n none (truncf .bf16 a) wt
    (constant S512x2048 .f32 0x00000000#32)

theorem prod_at (a : FVec Ideal S512x2048 .f32) (wt : FVec Ideal S2048x2048 .bf16) (p : Fin 512) (q : Fin 2048) :
    prod a wt (ix2 p q) = ∑ k : Fin 2048, a (ix2 p k) * wt (ix2 k q) := by
  unfold prod
  simp only [matmul]
  rw [Ideal.matmul_constant_zero_apply]
  exact PlainDot.sum_eq dot_S512x2048_S2048x2048_S512x2048_1_0_0_1_n_n rfl rfl rfl rfl rfl rfl
    (truncf .bf16 a) wt p q

/-- The contraction payload is the product of the block's activations with the weight block. -/
theorem pay2_eq (x0 : Vec Ideal S512x2048 .f32) (x2 x3 : Vec Ideal S1x2048 .f32) (x1 : Vec Ideal S2048x2048 .bf16) :
    Gen.k0_pay2 x0 x2 x3 x1
      = prod (signBlk (normedBlk (shapeCast S512x2048 x0) (shapeCast S1x2048 x2) (shapeCast S1x2048 x3)))
          (shapeCast S2048x2048 x1) := rfl

/-- The stored payload at (p, q). -/
theorem pay_at (x0 : Vec Ideal S512x2048 .f32) (x1 : Vec Ideal S2048x2048 .bf16) (x2 x3 x4 x5 : Vec Ideal S1x2048 .f32)
    (p : Fin 512) (q : Fin 2048) :
    Gen.k0_pay1 (Gen.k0_pay2 x0 x2 x3 x1) (Gen.k0_pay3 x4) x5 (ix2 p q)
      = combine (act (fun k => x0 (ix2 p k)) (fun k => x2 (ix2 (0 : Fin 1) k)) (fun k => x3 (ix2 (0 : Fin 1) k)))
          (fun k => x1 (ix2 k q)) (x4 (ix2 (0 : Fin 1) q)) (x5 (ix2 (0 : Fin 1) q)) := by
  have h1 : Gen.k0_pay1 (Gen.k0_pay2 x0 x2 x3 x1) (Gen.k0_pay3 x4) x5
      = mulf (addf (Gen.k0_pay2 x0 x2 x3 x1) (broadcastTo S512x2048 (shapeCast S1x2048 x4)))
          (broadcastTo S512x2048 (shapeCast S1x2048 x5)) := rfl
  rw [h1, pay2_eq, mulf_apply, addf_apply, broadcastTo_1b_ab_apply, broadcastTo_1b_ab_apply, prod_at]
  simp only [shapeCast_self, signBlk_at, normedBlk_at]
  rfl

end Cert.BinLinear.Ker

end
-- ==== Proof.KernelArray.lean ====
/-
  From the blocks to the array.

  Grid point t works on rows 512·t … 512·t + 511 of the [16384, 2048] input and writes the same rows of the output;
  the weight block and the four parameter rows are the whole of their arrays at every point. So what point t writes
  back is the restriction, to its rows, of ONE function of the arrays as the region finds them (`flat`: entry (r, q)
  is `combine` of the activations of input row r with column q of the weight array). The 32 row blocks cover the
  output, which therefore ends holding that function.
-/
import proofs.«106671_j49203145343136_1_alg».proof.Proof.Gen.KernelIdeal.Frame
import proofs.«106671_j49203145343136_1_alg».proof.Proof.KernelPayload
import Idealize.ShloMosaic.Lib.Pipeline.Value

noncomputable section

open scoped BigOperators

namespace Cert.BinLinear.Arr

open Cert.KernelIdeal Cert.KernelIdeal.Gen Idealize.ShloMosaic Idealize.ShloMosaic.TcCoe Idealize.SL.Sem
open Idealize.ShloMosaic.ValueIdx Cert.BinLinear
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Entry (r, q) of the flat result from the arrays the region reads. -/
def flatAt (X : S16384x2048.Idx → EReal) (Wt : S2048x2048.Idx → EReal) (g b bias alpha : S1x2048.Idx → EReal)
    (r : Fin 16384) (q : Fin 2048) : EReal :=
  combine (act (fun k => X (ix2 r k)) (fun k => g (ix2 (0 : Fin 1) k)) (fun k => b (ix2 (0 : Fin 1) k)))
    (fun k => Wt (ix2 k q)) (bias (ix2 (0 : Fin 1) q)) (alpha (ix2 (0 : Fin 1) q))

/-- The flat result. -/
def flat (X : S16384x2048.Idx → EReal) (Wt : S2048x2048.Idx → EReal) (g b bias alpha : S1x2048.Idx → EReal) :
    S16384x2048.Idx → EReal := fun i => flatAt X Wt g b bias alpha (i 0) (i 1)

/-- The stored payload at (p, q) of blocks that are rows of the arrays is the flat result at the block's row. -/
theorem pay_flat (X : S16384x2048.Idx → EReal) (Wt : S2048x2048.Idx → EReal) (g b bias alpha : S1x2048.Idx → EReal)
    (x0 : Vec Ideal S512x2048 .f32) (x1 : Vec Ideal S2048x2048 .bf16) (x2 x3 x4 x5 : Vec Ideal S1x2048 .f32)
    (p : Fin 512) (q : Fin 2048) (r : Fin 16384)
    (h0 : ∀ k : Fin 2048, x0 (ix2 p k) = X (ix2 r k)) (h1 : ∀ k : Fin 2048, x1 (ix2 k q) = Wt (ix2 k q))
    (h2 : ∀ k : Fin 2048, x2 (ix2 (0 : Fin 1) k) = g (ix2 (0 : Fin 1) k))
    (h3 : ∀ k : Fin 2048, x3 (ix2 (0 : Fin 1) k) = b (ix2 (0 : Fin 1) k))
    (h4 : x4 (ix2 (0 : Fin 1) q) = bias (ix2 (0 : Fin 1) q)) (h5 : x5 (ix2 (0 : Fin 1) q) = alpha (ix2 (0 : Fin 1) q)) :
    k0_pay1 (k0_pay2 x0 x2 x3 x1) (k0_pay3 x4) x5 (ix2 p q) = flatAt X Wt g b bias alpha r q := by
  rw [Ker.pay_at]
  unfold flatAt
  simp only [h0, h1, h2, h3, h4, h5]

/-- The printed index maps over the grid: the input's and the output's row block is the point, every other block
    index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The input block at point t is rows 512·t … of the flat input. -/
theorem xblk_at (c : Dev nD) (t : Fin cfg0.N) (p : Fin 512) (k : Fin 2048) (r : Fin 16384)
    (hr : r.val = t.val * 512 + p.val) :
    (iblk m c 0 t : Vec Ideal S512x2048 .f32) (ix2 p k) = (V m c main_v0 : S16384x2048.Idx → EReal) (ix2 r k) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The weight block at every point is the whole weight array. -/
theorem wblk_at (c : Dev nD) (t : Fin cfg0.N) (k q : Fin 2048) :
    (iblk m c 1 t : Vec Ideal S2048x2048 .bf16) (ix2 k q) = (V m c main_v9 : S2048x2048.Idx → EReal) (ix2 k q) := by
  obtain ⟨-, -, e0, e1, -⟩ := idx_facts t
  unfold iblk
  rw [View.read_apply]
  show V m c main_v9 _ = V m c main_v9 _
  refine congrArg (V m c main_v9) (funext fun a => Fin.ext ?_)
  match a with
  | ⟨0, _⟩ => show win0_1.index t (0 : Fin 2) * 2048 + 1 * k.val = k.val; rw [e0]; omega
  | ⟨1, _⟩ => show win0_1.index t (1 : Fin 2) * 2048 + 1 * q.val = q.val; rw [e1]; omega

/-- Each parameter row's block at every point is the whole row. -/
theorem gblk_at (c : Dev nD) (t : Fin cfg0.N) (k : Fin 2048) :
    (iblk m c 2 t : Vec Ideal S1x2048 .f32) (ix2 (0 : Fin 1) k) = (V m c main_v10 : S1x2048.Idx → EReal) (ix2 (0 : Fin 1) k) := by
  obtain ⟨-, -, -, -, e0, e1, -⟩ := idx_facts t
  unfold iblk
  rw [View.read_apply]
  show V m c main_v10 _ = V m c main_v10 _
  refine congrArg (V m c main_v10) (funext fun a => Fin.ext ?_)
  match a with
  | ⟨0, _⟩ => show win0_2.index t (0 : Fin 2) * 1 + 1 * 0 = 0; rw [e0]
  | ⟨1, _⟩ => show win0_2.index t (1 : Fin 2) * 2048 + 1 * k.val = k.val; rw [e1]; omega

theorem bblk_at (c : Dev nD) (t : Fin cfg0.N) (k : Fin 2048) :
    (iblk m c 3 t : Vec Ideal S1x2048 .f32) (ix2 (0 : Fin 1) k) = (V m c main_v11 : S1x2048.Idx → EReal) (ix2 (0 : Fin 1) k) := by
  obtain ⟨-, -, -, -, -, -, e0, e1, -⟩ := idx_facts t
  unfold iblk
  rw [View.read_apply]
  show V m c main_v11 _ = V m c main_v11 _
  refine congrArg (V m c main_v11) (funext fun a => Fin.ext ?_)
  match a with
  | ⟨0, _⟩ => show win0_3.index t (0 : Fin 2) * 1 + 1 * 0 = 0; rw [e0]
  | ⟨1, _⟩ => show win0_3.index t (1 : Fin 2) * 2048 + 1 * k.val = k.val; rw [e1]; omega

theorem biasblk_at (c : Dev nD) (t : Fin cfg0.N) (k : Fin 2048) :
    (iblk m c 4 t : Vec Ideal S1x2048 .f32) (ix2 (0 : Fin 1) k) = (V m c main_v12 : S1x2048.Idx → EReal) (ix2 (0 : Fin 1) k) := by
  obtain ⟨-, -, -, -, -, -, -, -, e0, e1, -⟩ := idx_facts t
  unfold iblk
  rw [View.read_apply]
  show V m c main_v12 _ = V m c main_v12 _
  refine congrArg (V m c main_v12) (funext fun a => Fin.ext ?_)
  match a with
  | ⟨0, _⟩ => show win0_4.index t (0 : Fin 2) * 1 + 1 * 0 = 0; rw [e0]
  | ⟨1, _⟩ => show win0_4.index t (1 : Fin 2) * 2048 + 1 * k.val = k.val; rw [e1]; omega

theorem alphablk_at (c : Dev nD) (t : Fin cfg0.N) (k : Fin 2048) :
    (iblk m c 5 t : Vec Ideal S1x2048 .f32) (ix2 (0 : Fin 1) k) = (V m c main_v13 : S1x2048.Idx → EReal) (ix2 (0 : Fin 1) k) := by
  obtain ⟨-, -, -, -, -, -, -, -, -, -, e0, e1, -⟩ := idx_facts t
  unfold iblk
  rw [View.read_apply]
  show V m c main_v13 _ = V m c main_v13 _
  refine congrArg (V m c main_v13) (funext fun a => Fin.ext ?_)
  match a with
  | ⟨0, _⟩ => show win0_5.index t (0 : Fin 2) * 1 + 1 * 0 = 0; rw [e0]
  | ⟨1, _⟩ => show win0_5.index t (1 : Fin 2) * 2048 + 1 * k.val = k.val; rw [e1]; omega

/-- What point t writes back is its row block of the flat result of the arrays as the region finds them. -/
theorem flushed_eq (c : Dev nD) (t : Fin cfg0.N) :
    (dats m 0 c).flushed 6 t = ((cfg0.win 6).blk t).view.read (Elt Ideal)
      (flat (V m c main_v0) (V m c main_v9) (V m c main_v10) (V m c main_v11) (V m c main_v12) (V m c main_v13)) := by
  show (cfg0.win 6).cut (grid0.coords t) ((dats m 0 c).after 6 t) = _
  rw [after0_6]
  unfold out0_6
  rw [View.canon_unit_zero hz]
  simp only [View.ld_unit_zero (S := S512x2048) hz, View.ld_unit_zero (S := S1x2048) hz,
    View.ld_unit_zero (S := S2048x2048) hz]
  obtain ⟨-, -, -, -, -, -, -, -, -, -, -, -, e0, e1⟩ := idx_facts t
  funext y
  obtain ⟨p, q, rfl⟩ : ∃ (p : Fin 512) (q : Fin 2048), y = ix2 p q := ⟨y 0, y 1, eq_ix2 y⟩
  have ht : t.val < 32 := lt_of_lt_of_eq t.isLt N_0
  have hp := p.isLt
  let r : Fin 16384 := ⟨t.val * 512 + p.val, by omega⟩
  have hemb : ((cfg0.win 6).blk t).view.emb (ix2 p q) = (ix2 r q : S16384x2048.Idx) := by
    funext a; apply Fin.ext
    match a with
    | ⟨0, _⟩ => show win0_6.index t (0 : Fin 2) * 512 + 1 * p.val = t.val * 512 + p.val; rw [e0]; omega
    | ⟨1, _⟩ => show win0_6.index t (1 : Fin 2) * 2048 + 1 * q.val = q.val; rw [e1]; omega
  rw [View.read_apply, hemb]
  show k0_pay1 (k0_pay2 (iblk m c 0 t) (iblk m c 2 t) (iblk m c 3 t) (iblk m c 1 t)) (k0_pay3 (iblk m c 4 t))
      (iblk m c 5 t) (ix2 p q) = flatAt _ _ _ _ _ _ r q
  exact pay_flat _ _ _ _ _ _ (iblk m c 0 t) (iblk m c 1 t) (iblk m c 2 t) (iblk m c 3 t) (iblk m c 4 t) (iblk m c 5 t)
    p q r (fun k => xblk_at m c t p k r rfl) (fun k => wblk_at m c t k q) (fun k => gblk_at m c t k)
    (fun k => bblk_at m c t k) (biasblk_at m c t q) (alphablk_at m c t q)

/-- An index of the output array is in point t's block iff each coordinate is in the block's range on its axis. -/
theorem mem_blk (t : Fin cfg0.N) (i : S16384x2048.Idx) :
    i ∈ ((cfg0.win 6).blk t).view.set ↔ ∀ a : Fin 2, win0_6.index t a * S512x2048.size a ≤ (i a).val
      ∧ (i a).val < win0_6.index t a * S512x2048.size a + S512x2048.size a := by
  show i ∈ ((View.whole main_v14).slice (win0_6.rect t)).set ↔ _
  rw [View.set_slice_whole, Rect.mem_set_unit]
  exact Iff.rfl

/-- Row r of the output is written by point r / 512. -/
theorem cover (i : S16384x2048.Idx) :
    ∃ t : Fin cfg0.N, (cfg0.win 6).flush t = true ∧ i ∈ ((cfg0.win 6).blk t).view.set := by
  have hi0 : (i 0).val < 16384 := (i 0).isLt
  have hi1 : (i 1).val < 2048 := (i 1).isLt
  have hN : cfg0.N = 32 := N_0
  have hlt : (i 0).val / 512 < cfg0.N := by rw [hN]; omega
  refine ⟨⟨(i 0).val / 512, hlt⟩, flush0_6 _, ?_⟩
  rw [mem_blk]
  obtain ⟨-, -, -, -, -, -, -, -, -, -, -, -, e0, e1⟩ := idx_facts ⟨(i 0).val / 512, hlt⟩
  intro a
  match a with
  | ⟨0, _⟩ =>
    show win0_6.index ⟨(i 0).val / 512, hlt⟩ (0 : Fin 2) * 512 ≤ (i 0).val
      ∧ (i 0).val < win0_6.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, hlt⟩ (1 : Fin 2) * 2048 ≤ (i 1).val
      ∧ (i 1).val < win0_6.index ⟨(i 0).val / 512, hlt⟩ (1 : Fin 2) * 2048 + 2048
    rw [e1]; omega

/-- The output array after the region. -/
theorem final (c : Dev nD) :
    (dats m 0 c).arrAt 6 cfg0.N
      = flat (V m c main_v0) (V m c main_v9) (V m c main_v10) (V m c main_v11) (V m c main_v12) (V m c main_v13) :=
  (dats m 0 c).arrAt_eq_of_cover 6 _ (fun t _ => flushed_eq m c t) cover

end Cert.BinLinear.Arr

end
-- ==== Proof.LibFlatten.lean ====
/-
  Merging and splitting the two leading axes of a rank-3 array, read at an index.

  A row-major `[a, b, c]` array and the `[n, c]` array with `n = a · b` rows have the same entries in the same order: row
  `p · b + q` of the flat array is row `(p, q)` of the other. Both directions of the cast are read at coordinates; the flat
  row is given as an index `pq : Fin n` with the equation `pq = p · b + q`, so that the lemmas apply whether the extent `n`
  is written as a product or as a literal.
-/
import Idealize.ShloMosaic.Lib.ValueIdx
import Idealize.ShloMosaic.Lib.Pipeline.Value

noncomputable section

namespace Cert.LibFlatten

open Idealize.ShloMosaic Idealize.ShloMosaic.ValueIdx

variable {α : Type}

/-- An `[a, b, c]` array cast to `[n, c]` reads, at `(p · b + q, r)`, the operand at `(p, q, r)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

/-- An `[n, c]` array cast to `[a, b, c]` reads, at `(p, q, r)`, the operand at `(p · b + q, r)`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ y h (ix3 p q r) = y (ix2 pq r) :=
  shapeCast_apply y h _ _ (by
    rw [Shape.rowMajor_val_two, Shape.rowMajor_val_three]
    show pq.val * c + r.val = (p.val * b + q.val) * c + r.val
    rw [hpq])

end Cert.LibFlatten

end
-- ==== Proof.KernelHost.lean ====
/-
  The host operations around the region, and the kernel program's result.

  Before the region the host merges the input's two leading axes (row p·2048 + s of the flat input is row (p, s)),
  binarises the weight — the sign of each weight row's deviations from its own mean — and transposes it, so that
  entry (k, q) of what the region reads is the binarised weight of output q at feature k, and gives each parameter
  vector a unit row axis. After the region it splits the output's rows back into (p, s). Put together with the
  array the region leaves, the program's result is the layer of its arguments.
-/
import proofs.«106671_j49203145343136_1_alg».proof.Proof.Gen.KernelIdeal.Frame
import proofs.«106671_j49203145343136_1_alg».proof.Proof.KernelArray
import proofs.«106671_j49203145343136_1_alg».proof.Proof.LibFlatten
import Idealize.ShloMosaic.Lib.StableHlo.Run
import Idealize.ShloMosaic.Lib.ValueLayout
import Idealize.ShloMosaic.Lib.Tactic

noncomputable section

open scoped BigOperators

namespace Cert.BinLinear.Host

open Cert.KernelIdeal Cert.KernelIdeal.Gen Idealize.ShloMosaic Idealize.ShloMosaic.TcCoe Idealize.SL.Sem
open Idealize.ShloMosaic.ValueIdx Idealize.ShloMosaic.StableHlo Cert.BinLinear

variable (m : (ℓ : Loc nD τ sig) → Buf (Elt Ideal) ℓ)

/-- The binarised weight as the region reads it: the sign of each row's deviations, transposed. -/
def wT (W : FVec Ideal S2048x2048 .f32) : FVec Ideal S2048x2048 .bf16 :=
  truncf .bf16
    (transpose S2048x2048 [1, 0]
      (Host.sign
        (subf W
          (broadcastInDim S2048x2048 ![0, 1] bcast_S2048x1_S2048x2048_0_1
            (Host.divf
              (broadcastInDim S2048x1 ![0] bcast_S2048_S2048x1_0
                (Host.reduceAdd W (constant S_ .f32 0x00000000#32) reducesTo_S2048x2048_S2048_d1 h_S_))
              (broadcastInDim S2048x1 ![] bcast_S_S2048x1 (constant S_ .f32 0x45000000#32))))))
      transposes_S2048x2048_S2048x2048_1_0)
    bitsLt_bf16_f32

/-- A host sum along a weight row. -/
theorem rowSum_at (W : FVec Ideal S2048x2048 .f32) (q : Fin 2048) :
    Host.reduceAdd W (constant (F := Ideal) S_ .f32 0x00000000#32) reducesTo_S2048x2048_S2048_d1 h_S_ (ix1 q)
      = ∑ k : Fin 2048, W (ix2 q k) := by
  simp only [Host.reduceAdd, Ideal.hostReduceAdd_def]
  rw [Ideal.hostReduceAdd_single reducesTo_S2048x2048_S2048_d1 (by decide)]
  show Ideal.ofBits .f32 0x00000000#32 + _ = _
  rw [Ideal.ofBits_zero_f32, zero_add]
  refine Finset.sum_congr rfl fun k _ => congrArg W ?_
  funext a; apply Fin.ext; match a with | ⟨0, _⟩ => rfl | ⟨1, _⟩ => rfl

/-- The host's sign and quotient, read at an index. -/
theorem hsign_at {s : Shape} (x : FVec Ideal s .f32) (i : s.Idx) : Host.sign x i = Ideal.sign (x i) := rfl
theorem hdivf_at {s : Shape} (a b : FVec Ideal s .f32) (i : s.Idx) : Host.divf a b i = Ideal.div (a i) (b i) := rfl

/-- Entry (k, q) of the transposed binarised weight is the binarised weight row q at k. -/
theorem wT_at (W : FVec Ideal S2048x2048 .f32) (k q : Fin 2048) :
    wT W (ix2 k q) = wbin (fun j => W (ix2 q j)) k := by
  unfold wT
  rw [truncf_apply, transpose_ix2_apply, hsign_at, subf_apply, LibColumn.broadcastInDim_a1_ab_apply, hdivf_at,
    LibColumn.broadcastInDim_a_a1_apply, LibColumn.broadcastInDim_scalar_apply, rowSum_at]
  rfl

/-- The flat input the region finds. -/
theorem V_x (c : Dev nD) : (V m c main_v0 : S16384x2048.Idx → EReal)
    = shapeCast S16384x2048 (m ((c : Thread nD τ).loc main_arg0) : S8x2048x2048.Idx → EReal)
        shapeCasts_S8x2048x2048_S16384x2048 := by
  show StableHlo.after hostOps0 (fun b => m (c, b)) (Proc.devRef .tc main_v0) = _
  after_results
  all_goals rfl

/-- The weight the region finds. -/
theorem V_w (c : Dev nD) : (V m c main_v9 : S2048x2048.Idx → EReal)
    = wT (m ((c : Thread nD τ).loc main_arg3) : S2048x2048.Idx → EReal) := by
  show StableHlo.after hostOps0 (fun b => m (c, b)) (Proc.devRef .tc main_v9) = _
  after_results
  all_goals rfl

/-- The four parameter rows the region finds. -/
theorem V_g (c : Dev nD) : (V m c main_v10 : S1x2048.Idx → EReal)
    = shapeCast S1x2048 (m ((c : Thread nD τ).loc main_arg1) : S2048.Idx → EReal) shapeCasts_S2048_S1x2048 := by
  show StableHlo.after hostOps0 (fun b => m (c, b)) (Proc.devRef .tc main_v10) = _
  after_results
  all_goals rfl
theorem V_b (c : Dev nD) : (V m c main_v11 : S1x2048.Idx → EReal)
    = shapeCast S1x2048 (m ((c : Thread nD τ).loc main_arg2) : S2048.Idx → EReal) shapeCasts_S2048_S1x2048 := by
  show StableHlo.after hostOps0 (fun b => m (c, b)) (Proc.devRef .tc main_v11) = _
  after_results
  all_goals rfl
theorem V_bias (c : Dev nD) : (V m c main_v12 : S1x2048.Idx → EReal)
    = shapeCast S1x2048 (m ((c : Thread nD τ).loc main_arg4) : S2048.Idx → EReal) shapeCasts_S2048_S1x2048 := by
  show StableHlo.after hostOps0 (fun b => m (c, b)) (Proc.devRef .tc main_v12) = _
  after_results
  all_goals rfl
theorem V_alpha (c : Dev nD) : (V m c main_v13 : S1x2048.Idx → EReal)
    = shapeCast S1x2048 (m ((c : Thread nD τ).loc main_arg5) : S2048.Idx → EReal) shapeCasts_S2048_S1x2048 := by
  show StableHlo.after hostOps0 (fun b => m (c, b)) (Proc.devRef .tc main_v13) = _
  after_results
  all_goals rfl

/-- The program's result array: the output array of the region with its rows split back into (p, s). -/
theorem tail_eq (c : Dev nD) :
    (Pipeline.afterTail₀ cfgs (dats m) 0 (V0 m) [hostOps1] c main_v15 : S8x2048x2048.Idx → EReal)
      = shapeCast S8x2048x2048
          (Arr.flat (V m c main_v0) (V m c main_v9) (V m c main_v10) (V m c main_v11) (V m c main_v12) (V m c main_v13))
          shapeCasts_S16384x2048_S8x2048x2048 := by
  have e : Pipeline.withArrays (cfgs 0).spec c (V0 m c) (fun w => (dats m 0 c).arrAt w (cfgs 0).N)
        (Proc.devRef .tc main_v14)
      = Arr.flat (V m c main_v0) (V m c main_v9) (V m c main_v10) (V m c main_v11) (V m c main_v12) (V m c main_v13) :=
    (Pipeline.withArrays_arr spec0 launch0.win.arr_inj c (V0 m c) (fun w => (dats m 0 c).arrAt w cfg0.N) 6).trans
      (Arr.final m c)
  unfold Pipeline.afterTail₀
  show StableHlo.after hostOps1 _ (Proc.devRef .tc main_v15) = _
  after_results
  rw [e]
  rfl

/-- The kernel program's result is the layer of its arguments. -/
theorem result_eq (c : Dev nD) :
    (Pipeline.afterTail₀ cfgs (dats m) 0 (V0 m) [hostOps1] c main_v15 : S8x2048x2048.Idx → EReal)
      = layer (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [tail_eq]
  funext i
  obtain ⟨p, s, o, rfl⟩ : ∃ (p : Fin 8) (s o : Fin 2048), i = ix3 p s o := ⟨i 0, i 1, i 2, eq_ix3 i⟩
  have hp := p.isLt
  have hs := s.isLt
  let r : Fin 16384 := ⟨p.val * 2048 + s.val, by omega⟩
  rw [LibFlatten.shapeCast_nc_abc_apply _ _ p s o r rfl, layer_ix3]
  show Arr.flatAt _ _ _ _ _ _ r o = _
  unfold Arr.flatAt entryAt entry
  have hx : ∀ k : Fin 2048, (V m c main_v0 : S16384x2048.Idx → EReal) (ix2 r k)
      = (m ((c : Thread nD τ).loc main_arg0) : S8x2048x2048.Idx → EReal) (ix3 p s k) := fun k => by
    rw [V_x]; exact LibFlatten.shapeCast_abc_nc_apply _ _ p s k r rfl
  have hw : ∀ k : Fin 2048, (V m c main_v9 : S2048x2048.Idx → EReal) (ix2 k o)
      = wbin (fun j => (m ((c : Thread nD τ).loc main_arg3) : S2048x2048.Idx → EReal) (ix2 o j)) k := fun k => by
    rw [V_w]; exact wT_at _ k o
  have hg : ∀ k : Fin 2048, (V m c main_v10 : S1x2048.Idx → EReal) (ix2 (0 : Fin 1) k)
      = (m ((c : Thread nD τ).loc main_arg1) : S2048.Idx → EReal) (ix1 k) := fun k => by
    rw [V_g]; exact shapeCast_a_1a_apply _ _ 0 k
  have hb : ∀ k : Fin 2048, (V m c main_v11 : S1x2048.Idx → EReal) (ix2 (0 : Fin 1) k)
      = (m ((c : Thread nD τ).loc main_arg2) : S2048.Idx → EReal) (ix1 k) := fun k => by
    rw [V_b]; exact shapeCast_a_1a_apply _ _ 0 k
  have hbias : (V m c main_v12 : S1x2048.Idx → EReal) (ix2 (0 : Fin 1) o)
      = (m ((c : Thread nD τ).loc main_arg4) : S2048.Idx → EReal) (ix1 o) := by
    rw [V_bias]; exact shapeCast_a_1a_apply _ _ 0 o
  have halpha : (V m c main_v13 : S1x2048.Idx → EReal) (ix2 (0 : Fin 1) o)
      = (m ((c : Thread nD τ).loc main_arg5) : S2048.Idx → EReal) (ix1 o) := by
    rw [V_alpha]; exact shapeCast_a_1a_apply _ _ 0 o
  simp only [hx, hw, hg, hb, hbias, halpha]

end Cert.BinLinear.Host

end
-- ==== Proof.lean ====
/-
  A binarised linear layer: a Pallas kernel against its jnp reference, equal on the extended reals.

  Both programs compute, for input row (p, s) and output feature o,

      ((Σ_k sign(LN(x)[p, s, k]) · sign(w[o, k] − mean w[o, ·])) + bias[o]) · alpha[o],

  where LN is the layer normalisation of the row — deviation from the row mean, times the reciprocal square root of
  the row variance plus ε, times gamma, plus beta. The reference does it on [8, 2048, 2048] arrays with an einsum;
  the kernel merges the two leading axes, works on blocks of 512 rows against the resident, transposed, binarised
  weight, and splits the rows back afterwards. No step needs more than re-indexing: the two sides apply the same
  operations in the same order to the same numbers, the kernel's compare-and-select spelling of the sign is the
  host's sign at every extended real, and the change to sixteen bits before the product does not change a value
  there. So the precondition (finite inputs) is not used.

  `RowSpec` states the function, `RefSide` reads the reference as it, `KernelPayload` / `KernelArray` /
  `KernelHost` read the kernel program as it; here are the five claims.
-/
import proofs.«106671_j49203145343136_1_alg».proof.Defs
import proofs.«106671_j49203145343136_1_alg».proof.Proof.Gen.Kernel
import proofs.«106671_j49203145343136_1_alg».proof.Proof.Gen.Kernel.Frame
import proofs.«106671_j49203145343136_1_alg».proof.Proof.Gen.KernelIdeal
import proofs.«106671_j49203145343136_1_alg».proof.Proof.Gen.KernelIdeal.Frame
import proofs.«106671_j49203145343136_1_alg».proof.Proof.Gen.ReferenceIdeal
import proofs.«106671_j49203145343136_1_alg».proof.Proof.Gen.Pre_finite_inputs
import proofs.«106671_j49203145343136_1_alg».proof.Proof.Gen.ReferenceIdeal.Run
import proofs.«106671_j49203145343136_1_alg».proof.Proof.Gen.ReferenceIdeal.Read
import proofs.«106671_j49203145343136_1_alg».proof.Proof.RefSide
import proofs.«106671_j49203145343136_1_alg».proof.Proof.KernelHost
import Idealize.ShloMosaic.PureOps.IdealRules

noncomputable section

open Idealize.ShloMosaic Idealize.ShloMosaic.TcCoe Idealize.SL.Sem

namespace Cert.BinLinear.Run

open Cert.KernelIdeal Cert.KernelIdeal.Gen

/-- Every execution of the kernel program ends with its result at the layer of its arguments, the arguments
    unchanged: the frame run's post, read at the result through the lines after the region and at each argument. -/
theorem kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
        = layer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v15 (Pipeline.mem_restRefs_of main_v15 (by decide) (by decide))).trans (Host.result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.BinLinear.Run

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealisation: one with the operand's sign bit is −1 below zero and 1 otherwise. -/
theorem preserves : Cert.preserves_Kernel_KernelIdeal :=
  IdealRules.sign_bit.statement Cert.KernelIdeal.S512x2048 .f32

/-- Both programs end at the layer of their arguments, and the arguments agree. -/
theorem algebraic : Cert.algebraic_KernelIdeal_ReferenceIdeal := by
  intro m ρ m' ρ' _ hagree
  refine ⟨_, Cert.BinLinear.Run.kernel m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v38_eq, Cert.BinLinear.Ref.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
